-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S100000x64 : Shape := ⟨2, ![100000, 64]⟩
abbrev S5000x64 : Shape := ⟨2, ![5000, 64]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 81
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named.  @main is three pipelined regions among four stretches of host
  operations; the buffer contents at every boundary are a fold from the launch memory (a stretch applies its
  operations, a region replaces its output array by what its write-backs leave).  Every weakly fair execution
  terminates, the result buffer holds the last boundary's contents at it, and the six argument arrays are as launched.
-/
import proofs.«132144_j39608188403884_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«132144_j39608188403884_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Payloads.lean ====
/-
  The three kernel bodies' arithmetic at the ideal instance, each as one whole-block function of the blocks it loads:
  the first body is the matrix product of its row block with the weight matrix (rounding the operands to bf16 is the
  identity on the extended reals, and the matrix unit accumulates from zero); the second adds the bias row to every
  row, rectifies, and multiplies by the second weight matrix; the third adds the bias row to every row.
-/
import proofs.«132144_j39608188403884_1_alg».proof.Proof.Gen.KernelIdeal.Skeleton
import proofs.«132144_j39608188403884_1_alg».proof.Proof.LibBiasRow

noncomputable section

namespace Cert.KernelIdeal.Pay

open Cert.KernelIdeal Cert.KernelIdeal.Gen Cert.KernelIdeal.Facts₀ Idealize.ShloMosaic Idealize.ShloMosaic.ValueIdx Cert.Dense Cert.BiasRow

/-- A row block times the first weight matrix. -/
theorem pay0 (x : Vec Ideal S5000x128 .f32) (w : Vec Ideal S128x128 .f32) :
    k0_pay1 (F := Ideal) x w = mm (M := 5000) (K := 128) (N := 128) x w := by
  unfold k0_pay1
  exact matmul_zero_eq_mm dot_S5000x128_S128x128_S5000x128_1_0_0_1_n_n rfl rfl rfl rfl rfl rfl none _ _

/-- A row block, biased and rectified, times the second weight matrix. -/
theorem pay1 (x : Vec Ideal S5000x128 .f32) (b : Vec Ideal S128 .f32) (w : Vec Ideal S128x64 .f32) :
    k1_pay1 (F := Ideal) x b w = mm (M := 5000) (K := 128) (N := 64) (reluBias (M := 5000) (N := 128) x (row b)) w := by
  unfold k1_pay1
  dsimp only
  rw [shapeCast_self, shapeCast_row]
  refine (matmul_zero_eq_mm dot_S5000x128_S128x64_S5000x64_1_0_0_1_n_n rfl rfl rfl rfl rfl rfl none _ _).trans ?_
  refine congrArg (fun a : Mat 5000 128 => mm (M := 5000) (K := 128) (N := 64) a w) ?_
  exact vecReluBias (M := 5000) (N := 128) x (row b) _

/-- A row block plus the bias row. -/
theorem pay2 (x : Vec Ideal S5000x64 .f32) (b : Vec Ideal S64 .f32) :
    k2_pay1 (F := Ideal) x b = addRow (M := 5000) (N := 64) x (row b) := by
  unfold k2_pay1
  dsimp only
  rw [shapeCast_self, shapeCast_row]
  exact vecAddRow (M := 5000) (N := 64) x (row b) _

end Cert.KernelIdeal.Pay

end
-- ==== Proof.Regions.lean ====
/-
  What each of the three pipelined regions leaves in its output array, as one whole-array function of the arrays it
  finds at its entry (any entry contents `V`), at the ideal instance.

  Every region walks 20 blocks of 5,000 rows.  Block `t` of an input is rows `5000 t … 5000 t + 4999` of its array; the
  weight matrices and bias vectors are read whole at every point.  The matrix product, the rectified bias layer and the
  bias addition are row-local, so block `t` of the whole-array result is the body's result on block `t` of the input,
  and the 20 blocks cover the 100,000 rows: the output array ends holding the whole-array result.
-/
import proofs.«132144_j39608188403884_1_alg».proof.Proof.Gen.KernelIdeal.Frame
import proofs.«132144_j39608188403884_1_alg».proof.Proof.Payloads
import Idealize.ShloMosaic.Lib.Pipeline.Value

set_option maxRecDepth 16384

noncomputable section

namespace Cert.KernelIdeal.Regions

open Cert.KernelIdeal Cert.KernelIdeal.Gen Cert.KernelIdeal.Facts₀ Cert.KernelIdeal.Pay
open Idealize.ShloMosaic Idealize.ShloMosaic.TcCoe Idealize.ShloMosaic.ValueIdx Idealize.SL.Sem
open Idealize.ShloMosaic.Pipeline (Dat Cfg Window)
open Cert.Dense Cert.BiasRow

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: the first dense transform -/

/-- The whole-array result: the node features times the first weight matrix. -/
abbrev G0 (c : Dev nD) : S100000x128.Idx → EReal :=
  mm (M := 100000) (K := 128) (N := 128) (V c main_arg0) (V c main_arg2)

/-- The printed index maps over the grid: the row blocks move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  rw [pay0]
  obtain ⟨e0, e1, e2, e3, e4, e5⟩ := idx0 t
  funext j
  refine mm_at (M := 100000) (M' := 5000) (K := 128) (N := 128) (N' := 128) (V c main_arg0) (V c main_arg2) _ _ j (((cfg0.win 2).blk t).view.emb j) (fun k => ?_) (fun k => ?_)
  · show V c main_arg0 (((cfg0.win 0).blk t).view.emb (ix2 (c0 j) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (c1 j))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show _ < 20; omega⟩, flush0_2 _, ?_⟩
  rw [mem_blk0]
  obtain ⟨e0, e1, e2, e3, e4, e5⟩ := idx0 ⟨(i 0).val / 5000, by show _ < 20; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e5]; omega

/-- Region 0's output array after the region. -/
theorem final0 (c : Dev nD) : (dat0 V c).arrAt 2 cfg0.N = G0 V c :=
  (dat0 V c).arrAt_eq_of_cover 2 (G0 V c) (fun t _ => flushed0 V c t) cover0

/-! ## Region 1: bias, rectify, the second dense transform -/

/-- The whole-array result: the aggregated features plus the first bias row, rectified, times the second weight matrix. -/
abbrev G1 (c : Dev nD) : S100000x64.Idx → EReal :=
  mm (M := 100000) (K := 128) (N := 64) (reluBias (M := 100000) (N := 128) (V c main_v43) (row (V c main_arg3))) (V c main_arg4)

theorem idx1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array layer. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1, View.ld_unit_zero (S := S128x64) hz2]
  rw [pay1]
  obtain ⟨e0, e1, e2, e3, e4, e5, e6⟩ := idx1 t
  funext j
  refine mm_at (M := 100000) (M' := 5000) (K := 128) (N := 64) (N' := 64) _ (V c main_arg4) _ _ j (((cfg1.win 3).blk t).view.emb j) (fun k => ?_) (fun k => ?_)
  · refine reluBias_at (M := 100000) (M' := 5000) (N := 128) (N' := 128) (V c main_v43) (row (V c main_arg3)) _ _ _ _ ?_ ?_
    · show V c main_v43 (((cfg1.win 0).blk t).view.emb (ix2 (c0 j) k)) = _
      refine congrArg (V c main_v43) (funext fun a => Fin.ext ?_)
      match a with
      | ⟨0, _⟩ =>
        show win1_0.index t (0 : Fin 2) * 5000 + 1 * (j 0).val = win1_3.index t (0 : Fin 2) * 5000 + 1 * (j 0).val
        omega
      | ⟨1, _⟩ =>
        show win1_0.index t (1 : Fin 2) * 128 + 1 * k.val = k.val
        omega
    · show V c main_arg3 (((cfg1.win 1).blk t).view.emb (ix1 k)) = V c main_arg3 (ix1 k)
      refine congrArg (V c main_arg3) (funext fun a => Fin.ext ?_)
      match a with
      | ⟨0, _⟩ =>
        show win1_1.index t (0 : Fin 1) * 128 + 1 * k.val = k.val
        omega
  · show V c main_arg4 (((cfg1.win 2).blk t).view.emb (ix2 k (c1 j))) = _
    refine congrArg (V c main_arg4) (funext fun a => Fin.ext ?_)
    match a with
    | ⟨0, _⟩ =>
      show win1_2.index t (0 : Fin 2) * 128 + 1 * k.val = k.val
      omega
    | ⟨1, _⟩ =>
      show win1_2.index t (1 : Fin 2) * 64 + 1 * (j 1).val = win1_3.index t (1 : Fin 2) * 64 + 1 * (j 1).val
      omega

theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 5000, by show _ < 20; omega⟩, flush1_3 _, ?_⟩
  rw [mem_blk1]
  obtain ⟨e0, e1, e2, e3, e4, e5, e6⟩ := idx1 ⟨(i 0).val / 5000, by show _ < 20; omega⟩
  intro a
  match a with
  | ⟨0, _⟩ =>
    show win1_3.index _ (0 : Fin 2) * 5000 ≤ (i 0).val ∧ (i 0).val < win1_3.index _ (0 : Fin 2) * 5000 + 5000
    rw [e5]; show (i 0).val / 5000 * 5000 ≤ (i 0).val ∧ (i 0).val < (i 0).val / 5000 * 5000 + 5000
    omega
  | ⟨1, _⟩ =>
    show win1_3.index _ (1 : Fin 2) * 64 ≤ (i 1).val ∧ (i 1).val < win1_3.index _ (1 : Fin 2) * 64 + 64
    rw [e6]; omega

/-- Region 1's output array after the region. -/
theorem final1 (c : Dev nD) : (dat1 V c).arrAt 3 cfg1.N = G1 V c :=
  (dat1 V c).arrAt_eq_of_cover 3 (G1 V c) (fun t _ => flushed1 V c t) cover1

/-! ## Region 2: the last bias -/

/-- The whole-array result: the aggregated features plus the second bias row. -/
abbrev G2 (c : Dev nD) : S100000x64.Idx → EReal :=
  addRow (M := 100000) (N := 64) (V c main_v57) (row (V c main_arg5))

theorem idx2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of the whole-array sum. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64) hz1]
  rw [pay2]
  obtain ⟨e0, e1, e2, e3, e4⟩ := idx2 t
  funext j
  refine addRow_at (M := 100000) (M' := 5000) (N := 64) (N' := 64) (V c main_v57) (row (V c main_arg5)) _ _ j (((cfg2.win 2).blk t).view.emb j) ?_ ?_
  · show V c main_v57 (((cfg2.win 0).blk t).view.emb j) = _
    refine congrArg (V c main_v57) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * (j 1).val = win2_2.index t (1 : Fin 2) * 64 + 1 * (j 1).val
      omega
  · show V c main_arg5 (((cfg2.win 1).blk t).view.emb (ix1 (c1 j))) = V c main_arg5 (ix1 (c1 (((cfg2.win 2).blk t).view.emb j)))
    refine congrArg (V c main_arg5) (funext fun a => Fin.ext ?_)
    match a with
    | ⟨0, _⟩ =>
      show win2_1.index t (0 : Fin 1) * 64 + 1 * (j 1).val = win2_2.index t (1 : Fin 2) * 64 + 1 * (j 1).val
      omega

theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v58).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by show _ < 20; omega⟩, flush2_2 _, ?_⟩
  rw [mem_blk2]
  obtain ⟨e0, e1, e2, e3, e4⟩ := idx2 ⟨(i 0).val / 5000, by show _ < 20; omega⟩
  intro a
  match a with
  | ⟨0, _⟩ =>
    show win2_2.index _ (0 : Fin 2) * 5000 ≤ (i 0).val ∧ (i 0).val < win2_2.index _ (0 : Fin 2) * 5000 + 5000
    rw [e3]; show (i 0).val / 5000 * 5000 ≤ (i 0).val ∧ (i 0).val < (i 0).val / 5000 * 5000 + 5000
    omega
  | ⟨1, _⟩ =>
    show win2_2.index _ (1 : Fin 2) * 64 ≤ (i 1).val ∧ (i 1).val < win2_2.index _ (1 : Fin 2) * 64 + 64
    rw [e4]; omega

/-- Region 2's output array after the region. -/
theorem final2 (c : Dev nD) : (dat2 V c).arrAt 2 cfg2.N = G2 V c :=
  (dat2 V c).arrAt_eq_of_cover 2 (G2 V c) (fun t _ => flushed2 V c t) cover2

end Cert.KernelIdeal.Regions

end
-- ==== Proof.Graph.lean ====
/-
  The graph side of the two-layer convolution, as the host computes it, in named stages (at any float instance).

  `src e` / `dst e`: the edge list's first / second row followed by one self-loop per node (1,600,000 edges and
  100,000 loops).  `wrap i`: a negative index counted from the end.  `dinv d`: the in-degree of every node (a
  scatter-add of ones over the targets) to the power -1/2 where it is positive, zero elsewhere.  `norm s d`: per edge,
  `dinv` at its source times `dinv` at its target.  `agg128 h s d n` / `agg64 h s d n`: every edge gathers row
  `s` of `h`, scales it by the edge's factor `n`, and the rows are scatter-added into the targets `d` from zero.
  Nothing here is ever evaluated: both programs apply these same stages, and the certificate only moves them around.
-/
import proofs.«132144_j39608188403884_1_alg».proof.Proof.Gen.KernelIdeal

noncomputable section

namespace Cert.KernelIdeal.Graph

open Cert.KernelIdeal Cert.KernelIdeal.Facts₀ Idealize.ShloMosaic

variable {F : FTy → Type} [FloatOps F]

/-- The sources: the edge list's first row, then one self-loop per node. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: the edge list's second row, then one self-loop per node. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counted from the end. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- Every node's in-degree, self-loop included: ones scatter-added over the targets. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The degree to the power -1/2 where it is positive, zero elsewhere. -/
def dinv (d : (⟨S1700000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- Per edge: `dinv` at its source times `dinv` at its target. -/
def norm (s d : (⟨S1700000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- Gather the sources' rows, scale each by its edge's factor, scatter-add into the targets (128 channels). -/
def agg128 (h : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-- The same over 64 channels. -/
def agg64 (h : (⟨S100000x64, .f32⟩ : BufTy).Contents (Elt F)) (s d : (⟨S1700000, .i32⟩ : BufTy).Contents (Elt F)) (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))

end Cert.KernelIdeal.Graph

end
-- ==== Proof.HostStages.lean ====
/-
  The kernel's four stretches of host operations, read as the named graph stages (at any float instance).

  The opening stretch computes, from the edge list alone, the sources, the targets and the per-edge factor, and leaves
  the other arguments alone.  The stretch between the first and the second region aggregates the first region's output
  over 128 channels; the stretch between the second and the third aggregates the second region's output over 64
  channels.  Both read the sources, targets and factor left by the opening stretch and write none of them.
-/
import proofs.«132144_j39608188403884_1_alg».proof.Proof.Gen.KernelIdeal.Frame
import proofs.«132144_j39608188403884_1_alg».proof.Proof.Graph

set_option maxRecDepth 16384

noncomputable section

namespace Cert.KernelIdeal.Stages

open Cert.KernelIdeal Cert.KernelIdeal.Gen Cert.KernelIdeal.Facts₀ Cert.KernelIdeal.Graph
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The opening stretch -/

/-- The sources, as the first region finds them. -/
theorem W3_src (c : Dev nD) : W3 m ρ c (Proc.devRef .tc main_v3) = src (m ((c : Thread nD τ).loc main_arg1)) := by
  dsimp only [W3, W2, W1, hostOps0, hostOps0_1, hostOps0_2]
  after_results_simp
  rfl

/-- The targets, as the first region finds them. -/
theorem W3_dst (c : Dev nD) : W3 m ρ c (Proc.devRef .tc main_v6) = dst (m ((c : Thread nD τ).loc main_arg1)) := by
  dsimp only [W3, W2, W1, hostOps0, hostOps0_1, hostOps0_2]
  after_results_simp
  rfl

/-- The per-edge factor, as the first region finds it. -/
theorem W3_norm (c : Dev nD) :
    W3 m ρ c (Proc.devRef .tc main_v29) = norm (src (m ((c : Thread nD τ).loc main_arg1))) (dst (m ((c : Thread nD τ).loc main_arg1))) := by
  dsimp only [W3, W2, W1, hostOps0, hostOps0_1, hostOps0_2]
  after_results_simp
  rfl

/-- Argument 0 is untouched by the opening stretch. -/
theorem W3_arg0 (c : Dev nD) : W3 m ρ c (Proc.devRef .tc main_arg0) = m ((c : Thread nD τ).loc main_arg0) := by
  dsimp only [W3, W2, W1, hostOps0, hostOps0_1, hostOps0_2]
  after_results_simp
/-- Argument 2 is untouched by the opening stretch. -/
theorem W3_arg2 (c : Dev nD) : W3 m ρ c (Proc.devRef .tc main_arg2) = m ((c : Thread nD τ).loc main_arg2) := by
  dsimp only [W3, W2, W1, hostOps0, hostOps0_1, hostOps0_2]
  after_results_simp
/-- Argument 3 is untouched by the opening stretch. -/
theorem W3_arg3 (c : Dev nD) : W3 m ρ c (Proc.devRef .tc main_arg3) = m ((c : Thread nD τ).loc main_arg3) := by
  dsimp only [W3, W2, W1, hostOps0, hostOps0_1, hostOps0_2]
  after_results_simp
/-- Argument 4 is untouched by the opening stretch. -/
theorem W3_arg4 (c : Dev nD) : W3 m ρ c (Proc.devRef .tc main_arg4) = m ((c : Thread nD τ).loc main_arg4) := by
  dsimp only [W3, W2, W1, hostOps0, hostOps0_1, hostOps0_2]
  after_results_simp
/-- Argument 5 is untouched by the opening stretch. -/
theorem W3_arg5 (c : Dev nD) : W3 m ρ c (Proc.devRef .tc main_arg5) = m ((c : Thread nD τ).loc main_arg5) := by
  dsimp only [W3, W2, W1, hostOps0, hostOps0_1, hostOps0_2]
  after_results_simp

/-! ## Between the first and the second region -/

/-- The first aggregation, over what the first region left. -/
theorem W5_agg (c : Dev nD) : W5 m ρ c (Proc.devRef .tc main_v43)
    = agg128 (W4 m ρ c (Proc.devRef .tc main_v30)) (W4 m ρ c (Proc.devRef .tc main_v3)) (W4 m ρ c (Proc.devRef .tc main_v6)) (W4 m ρ c (Proc.devRef .tc main_v29)) := by
  dsimp only [W5, hostOps1]
  after_results_simp
  rfl

theorem W5_v3 (c : Dev nD) : W5 m ρ c (Proc.devRef .tc main_v3) = W4 m ρ c (Proc.devRef .tc main_v3) := by
  dsimp only [W5, hostOps1]
  after_results_simp
theorem W5_v6 (c : Dev nD) : W5 m ρ c (Proc.devRef .tc main_v6) = W4 m ρ c (Proc.devRef .tc main_v6) := by
  dsimp only [W5, hostOps1]
  after_results_simp
theorem W5_v29 (c : Dev nD) : W5 m ρ c (Proc.devRef .tc main_v29) = W4 m ρ c (Proc.devRef .tc main_v29) := by
  dsimp only [W5, hostOps1]
  after_results_simp
theorem W5_arg3 (c : Dev nD) : W5 m ρ c (Proc.devRef .tc main_arg3) = W4 m ρ c (Proc.devRef .tc main_arg3) := by
  dsimp only [W5, hostOps1]
  after_results_simp
theorem W5_arg4 (c : Dev nD) : W5 m ρ c (Proc.devRef .tc main_arg4) = W4 m ρ c (Proc.devRef .tc main_arg4) := by
  dsimp only [W5, hostOps1]
  after_results_simp
theorem W5_arg5 (c : Dev nD) : W5 m ρ c (Proc.devRef .tc main_arg5) = W4 m ρ c (Proc.devRef .tc main_arg5) := by
  dsimp only [W5, hostOps1]
  after_results_simp

/-! ## Between the second and the third region -/

/-- The second aggregation, over what the second region left. -/
theorem W7_agg (c : Dev nD) : W7 m ρ c (Proc.devRef .tc main_v57)
    = agg64 (W6 m ρ c (Proc.devRef .tc main_v44)) (W6 m ρ c (Proc.devRef .tc main_v3)) (W6 m ρ c (Proc.devRef .tc main_v6)) (W6 m ρ c (Proc.devRef .tc main_v29)) := by
  dsimp only [W7, hostOps2]
  after_results_simp
  rfl

theorem W7_v3 (c : Dev nD) : W7 m ρ c (Proc.devRef .tc main_v3) = W6 m ρ c (Proc.devRef .tc main_v3) := by
  dsimp only [W7, hostOps2]
  after_results_simp
theorem W7_v6 (c : Dev nD) : W7 m ρ c (Proc.devRef .tc main_v6) = W6 m ρ c (Proc.devRef .tc main_v6) := by
  dsimp only [W7, hostOps2]
  after_results_simp
theorem W7_v29 (c : Dev nD) : W7 m ρ c (Proc.devRef .tc main_v29) = W6 m ρ c (Proc.devRef .tc main_v29) := by
  dsimp only [W7, hostOps2]
  after_results_simp
theorem W7_arg5 (c : Dev nD) : W7 m ρ c (Proc.devRef .tc main_arg5) = W6 m ρ c (Proc.devRef .tc main_arg5) := by
  dsimp only [W7, hostOps2]
  after_results_simp

end Cert.KernelIdeal.Stages

end
-- ==== Proof.Spec.lean ====
/-
  The function both programs compute, on the extended reals: a two-layer graph convolution.

  With `s`, `d` the edges' sources and targets (self-loops appended) and `n` the per-edge symmetric normalisation,
  one layer is "multiply the node features by a weight matrix, gather the sources' rows, scale each by its edge's
  factor, scatter-add into the targets, add the bias row".  The first layer is rectified; the second is not:
  `out = A (relu (A (x W1) + b1) W2) + b2`, `A` the aggregation.
-/
import proofs.«132144_j39608188403884_1_alg».proof.Proof.Graph
import proofs.«132144_j39608188403884_1_alg».proof.Proof.LibBiasRow

noncomputable section

namespace Cert.KernelIdeal.Spec

open Cert.KernelIdeal Cert.KernelIdeal.Graph Idealize.ShloMosaic Cert.Dense Cert.BiasRow

/-- The two-layer graph convolution of the node features `x` along the edges `e`. -/
def out (x : Mat 100000 128) (e : (⟨S2x1600000, .i32⟩ : BufTy).Contents (Elt Ideal)) (W1 : Mat 128 128) (b1 : Row 128)
    (W2 : Mat 128 64) (b2 : Row 64) : Mat 100000 64 :=
  addRow (M := 100000) (N := 64)
    (agg64 (F := Ideal)
      (mm (M := 100000) (K := 128) (N := 64)
        (reluBias (M := 100000) (N := 128)
          (agg128 (F := Ideal) (mm (M := 100000) (K := 128) (N := 128) x W1) (src e) (dst e) (norm (src e) (dst e)))
          (row b1))
        W2)
      (src e) (dst e) (norm (src e) (dst e)))
    (row b2)

end Cert.KernelIdeal.Spec

end
-- ==== Proof.KernelResult.lean ====
/-
  The idealized kernel's result buffer, read back through the fold of boundary contents to the launch memory: it holds
  the two-layer graph convolution of the arguments.  Each region's output array is its whole-array function of what
  the region found; each host stretch is a named graph stage of what the stretch found; the edge stages and the
  arguments pass through every later boundary unchanged.
-/
import proofs.«132144_j39608188403884_1_alg».proof.Proof.Regions
import proofs.«132144_j39608188403884_1_alg».proof.Proof.HostStages
import proofs.«132144_j39608188403884_1_alg».proof.Proof.Spec

set_option maxRecDepth 16384

noncomputable section

namespace Cert.KernelIdeal.Result

open Cert.KernelIdeal Cert.KernelIdeal.Gen Cert.KernelIdeal.Facts₀ Cert.KernelIdeal.Graph Cert.KernelIdeal.Stages Cert.KernelIdeal.Regions
open Idealize.ShloMosaic Idealize.ShloMosaic.TcCoe Idealize.SL.Sem
open Cert.Dense Cert.BiasRow

variable (m : (ℓ : Loc nD τ sig) → Buf (Elt Ideal) ℓ) (ρ : Dev nD → PrngReg)

/-- The result buffer after the last region: the two-layer convolution of the launch arguments. -/
theorem result (c : Dev nD) : W8 m ρ c (Proc.devRef .tc main_v58)
    = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the first region's output: the features times the first weight matrix
  have h1 : W4 m ρ c (Proc.devRef .tc main_v30) = (mm (M := 100000) (K := 128) (N := 128) (m ((c : Thread nD τ).loc main_arg0)) (m ((c : Thread nD τ).loc main_arg2))) := by
    refine (W4_arr m ρ c 2).trans ((final0 (V3 m ρ) c).trans ?_)
    show mm (M := 100000) (K := 128) (N := 128) (W3 m ρ c (Proc.devRef .tc main_arg0)) (W3 m ρ c (Proc.devRef .tc main_arg2)) = _
    rw [W3_arg0, W3_arg2]
  -- the edge stages pass the first region
  have s4 : W4 m ρ c (Proc.devRef .tc main_v3) = (src (m ((c : Thread nD τ).loc main_arg1))) := (W4_of_ne m ρ c main_v3 (by decide)).trans (W3_src m ρ c)
  have d4 : W4 m ρ c (Proc.devRef .tc main_v6) = (dst (m ((c : Thread nD τ).loc main_arg1))) := (W4_of_ne m ρ c main_v6 (by decide)).trans (W3_dst m ρ c)
  have n4 : W4 m ρ c (Proc.devRef .tc main_v29) = (norm (src (m ((c : Thread nD τ).loc main_arg1))) (dst (m ((c : Thread nD τ).loc main_arg1)))) := (W4_of_ne m ρ c main_v29 (by decide)).trans (W3_norm m ρ c)
  have a1 : W5 m ρ c (Proc.devRef .tc main_v43) = (agg128 (F := Ideal) (mm (M := 100000) (K := 128) (N := 128) (m ((c : Thread nD τ).loc main_arg0)) (m ((c : Thread nD τ).loc main_arg2))) (src (m ((c : Thread nD τ).loc main_arg1))) (dst (m ((c : Thread nD τ).loc main_arg1))) (norm (src (m ((c : Thread nD τ).loc main_arg1))) (dst (m ((c : Thread nD τ).loc main_arg1))))) := by rw [W5_agg, h1, s4, d4, n4]
  -- the second region's output
  have b5 : W5 m ρ c (Proc.devRef .tc main_arg3) = (m ((c : Thread nD τ).loc main_arg3)) :=
    (W5_arg3 m ρ c).trans ((W4_of_ne m ρ c main_arg3 (by decide)).trans (W3_arg3 m ρ c))
  have w5 : W5 m ρ c (Proc.devRef .tc main_arg4) = (m ((c : Thread nD τ).loc main_arg4)) :=
    (W5_arg4 m ρ c).trans ((W4_of_ne m ρ c main_arg4 (by decide)).trans (W3_arg4 m ρ c))
  have h2 : W6 m ρ c (Proc.devRef .tc main_v44) = (mm (M := 100000) (K := 128) (N := 64) (reluBias (M := 100000) (N := 128) (agg128 (F := Ideal) (mm (M := 100000) (K := 128) (N := 128) (m ((c : Thread nD τ).loc main_arg0)) (m ((c : Thread nD τ).loc main_arg2))) (src (m ((c : Thread nD τ).loc main_arg1))) (dst (m ((c : Thread nD τ).loc main_arg1))) (norm (src (m ((c : Thread nD τ).loc main_arg1))) (dst (m ((c : Thread nD τ).loc main_arg1))))) (row (m ((c : Thread nD τ).loc main_arg3)))) (m ((c : Thread nD τ).loc main_arg4))) := by
    refine (W6_arr m ρ c 3).trans ((final1 (V5 m ρ) c).trans ?_)
    show mm (M := 100000) (K := 128) (N := 64) (reluBias (M := 100000) (N := 128) (W5 m ρ c (Proc.devRef .tc main_v43)) (row (W5 m ρ c (Proc.devRef .tc main_arg3)))) (W5 m ρ c (Proc.devRef .tc main_arg4)) = _
    rw [a1, b5, w5]
  -- the edge stages pass the second region
  have s6 : W6 m ρ c (Proc.devRef .tc main_v3) = (src (m ((c : Thread nD τ).loc main_arg1))) := (W6_of_ne m ρ c main_v3 (by decide)).trans ((W5_v3 m ρ c).trans s4)
  have d6 : W6 m ρ c (Proc.devRef .tc main_v6) = (dst (m ((c : Thread nD τ).loc main_arg1))) := (W6_of_ne m ρ c main_v6 (by decide)).trans ((W5_v6 m ρ c).trans d4)
  have n6 : W6 m ρ c (Proc.devRef .tc main_v29) = (norm (src (m ((c : Thread nD τ).loc main_arg1))) (dst (m ((c : Thread nD τ).loc main_arg1)))) := (W6_of_ne m ρ c main_v29 (by decide)).trans ((W5_v29 m ρ c).trans n4)
  have a2 : W7 m ρ c (Proc.devRef .tc main_v57) = (agg64 (F := Ideal) (mm (M := 100000) (K := 128) (N := 64) (reluBias (M := 100000) (N := 128) (agg128 (F := Ideal) (mm (M := 100000) (K := 128) (N := 128) (m ((c : Thread nD τ).loc main_arg0)) (m ((c : Thread nD τ).loc main_arg2))) (src (m ((c : Thread nD τ).loc main_arg1))) (dst (m ((c : Thread nD τ).loc main_arg1))) (norm (src (m ((c : Thread nD τ).loc main_arg1))) (dst (m ((c : Thread nD τ).loc main_arg1))))) (row (m ((c : Thread nD τ).loc main_arg3)))) (m ((c : Thread nD τ).loc main_arg4))) (src (m ((c : Thread nD τ).loc main_arg1))) (dst (m ((c : Thread nD τ).loc main_arg1))) (norm (src (m ((c : Thread nD τ).loc main_arg1))) (dst (m ((c : Thread nD τ).loc main_arg1))))) := by rw [W7_agg, h2, s6, d6, n6]
  have b7 : W7 m ρ c (Proc.devRef .tc main_arg5) = (m ((c : Thread nD τ).loc main_arg5)) :=
    (W7_arg5 m ρ c).trans ((W6_of_ne m ρ c main_arg5 (by decide)).trans ((W5_arg5 m ρ c).trans
      ((W4_of_ne m ρ c main_arg5 (by decide)).trans (W3_arg5 m ρ c))))
  -- the third region's output
  refine (W8_arr m ρ c 2).trans ((final2 (V7 m ρ) c).trans ?_)
  show addRow (M := 100000) (N := 64) (W7 m ρ c (Proc.devRef .tc main_v57)) (row (W7 m ρ c (Proc.devRef .tc main_arg5))) = _
  rw [a2, b7]
  rfl

end Cert.KernelIdeal.Result

end
-- ==== Proof.RefValue.lean ====
/-
  The idealized reference's result term is the two-layer graph convolution of its arguments: its two host dot products
  are matrix products, its `relu (… + b1)` is the rectified bias layer with the bias broadcast to a row and then to
  every row, its last addition the bias row added to every row; its graph stages are the named ones, operation for
  operation.
-/
import proofs.«132144_j39608188403884_1_alg».proof.Proof.RefRun
import proofs.«132144_j39608188403884_1_alg».proof.Proof.Spec

set_option maxRecDepth 16384

noncomputable section

namespace Cert.ReferenceIdeal.RefValue

open Cert.ReferenceIdeal Cert.ReferenceIdeal.Facts₀ Idealize.ShloMosaic Idealize.ShloMosaic.TcCoe Idealize.SL.Sem Cert.Dense Cert.BiasRow

theorem ref_value (m : (ℓ : Loc nD τ sig) → Buf (Elt Ideal) ℓ) (c : Dev nD) :
    Cert.ReferenceIdeal.ValueP.res_main_v64 (F := Ideal) m c
      = Cert.KernelIdeal.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v64
  rw [hostAddRow (M := 100000) (N := 64),
    hostDot_eq_mm (M := 100000) (K := 128) (N := 64) dot_S100000x128_S128x64_S100000x64_1_0_0_1_n_n rfl rfl rfl rfl rfl rfl,
    hostReluBias (M := 100000) (N := 128),
    hostDot_eq_mm (M := 100000) (K := 128) (N := 128) dot_S100000x128_S128x128_S100000x128_1_0_0_1_n_n rfl rfl rfl rfl rfl rfl]
  rfl

end Cert.ReferenceIdeal.RefValue

end
-- ==== Proof.lean ====
/-
  The certificate of the two-layer graph convolution kernel against its jnp reference.

  Both programs compute, on the extended reals, `out = A (relu (A (x W1) + b1) W2) + b2`, where `A` gathers the rows at
  the edges' sources, scales each by the edge's symmetric normalisation and scatter-adds them into the targets.  The
  reference does everything on the host.  The kernel keeps the graph stages on the host, operation for operation the
  same as the reference's, and runs the three dense stages — `x W1`, `relu (· + b1) W2`, `· + b2` — as pipelined
  regions over 20 blocks of 5,000 rows, feeding the matrix unit operands rounded to bf16, which is the identity on the
  extended reals.  The dense stages are row-local, so a region's output array is the whole-array stage of its input
  array; no law beyond that is needed, and the precondition is not used for the value.
  The frames are the generated ones (the reference's is its run with the result dropped); the idealization rewrote
  nothing, so `preserves` is trivial.
-/
import proofs.«132144_j39608188403884_1_alg».proof.Defs
import proofs.«132144_j39608188403884_1_alg».proof.Proof.Gen.Kernel
import proofs.«132144_j39608188403884_1_alg».proof.Proof.Gen.Kernel.Skeleton
import proofs.«132144_j39608188403884_1_alg».proof.Proof.Gen.Kernel.Launch
import proofs.«132144_j39608188403884_1_alg».proof.Proof.Gen.Kernel.Points
import proofs.«132144_j39608188403884_1_alg».proof.Proof.Gen.Kernel.Frame
import proofs.«132144_j39608188403884_1_alg».proof.Proof.Gen.KernelIdeal
import proofs.«132144_j39608188403884_1_alg».proof.Proof.Gen.KernelIdeal.Skeleton
import proofs.«132144_j39608188403884_1_alg».proof.Proof.Gen.KernelIdeal.Launch
import proofs.«132144_j39608188403884_1_alg».proof.Proof.Gen.KernelIdeal.Points
import proofs.«132144_j39608188403884_1_alg».proof.Proof.Gen.KernelIdeal.Frame
import proofs.«132144_j39608188403884_1_alg».proof.Proof.Gen.ReferenceIdeal
import proofs.«132144_j39608188403884_1_alg».proof.Proof.Gen.Pre_finite_inputs
import proofs.«132144_j39608188403884_1_alg».proof.Proof.RefRun
import proofs.«132144_j39608188403884_1_alg».proof.Proof.KernelRun
import proofs.«132144_j39608188403884_1_alg».proof.Proof.KernelResult
import proofs.«132144_j39608188403884_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both results are the two-layer convolution of arguments that agree. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.ref_value, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
